-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x512 : Shape := ⟨4, ![8, 128, 128, 512]⟩
abbrev S_ : Shape := ⟨0, ![]⟩

class Facts : Prop where
  bcast_S_S8x128x128x512 : S_.BroadcastsInDim S8x128x128x512 (![] : Fin 0 → Fin S8x128x128x512.rank)
  reducesTo_S8x128x128x512_S_d0_1_2_3 : S8x128x128x512.ReducesTo [0, 1, 2, 3] S_
  h_S_ : 0 < S_.numel

variable [Facts]

def fn {F : FTy → Type} [FloatOps F] (main_arg0 : FVec F S8x128x128x512 .f32) : IVec S_ 1 :=
  let main_v0 : FVec F S8x128x128x512 .f32 := Host.absf main_arg0
  let main_cst : FVec F S_ .f32 := constant S_ .f32 0x7F800000#32
  let main_v1 : FVec F S8x128x128x512 .f32 := broadcastInDim S8x128x128x512 ![] bcast_S_S8x128x128x512 main_cst
  let main_v2 : IVec S8x128x128x512 1 := cmpf .olt main_v0 main_v1
  let main_c : IVec S_ 1 := constantI S_ 1 1#1
  let main_v3 : IVec S_ 1 := (fun x v => Host.reduce IntOp.andi x v reducesTo_S8x128x128x512_S_d0_1_2_3 h_S_) main_v2 main_c
  main_v3
-- ==== Kernel.lean ====
abbrev S8x128x128x512 : Shape := ⟨4, ![8, 128, 128, 512]⟩
abbrev S1x16x128x512 : Shape := ⟨4, ![1, 16, 128, 512]⟩
abbrev S16x128x512 : Shape := ⟨3, ![16, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x128x128x512, .f32⟩
  | .hbm, ⟨1, _⟩ => ⟨S8x128x128x512, .f32⟩
  | .local _ .vmem, ⟨0, _⟩ => ⟨S1x16x128x512, .f32⟩
  | .local _ .vmem, ⟨1, _⟩ => ⟨S1x16x128x512, .f32⟩
  | .local _ .vmem, ⟨2, _⟩ => ⟨S1x16x128x512, .f32⟩
  | .local _ .vmem, ⟨3, _⟩ => ⟨S1x16x128x512, .f32⟩
  | _, _ => ⟨S8x128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  iota_S16x128x512_d1_w32 : S16x128x512.Iotas .tc 32 [1]
  rotates_S16x128x512_d1 : S16x128x512.Rotates 1 none
  shapeCasts_S16x128x512_S1x16x128x512 : S16x128x512.ShapeCasts S1x16x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x512.size a ≤ S8x128x128x512.size a
  hwx0_0 : ∀ i : grid0.Coords, EltTy.bits .f32 = 32 ∨ (Rect.block (s := S8x128x128x512) S1x16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x512.size a ≤ S8x128x128x512.size a
  hwx0_1 : ∀ i : grid0.Coords, EltTy.bits .f32 = 32 ∨ (Rect.block (s := S8x128x128x512) S1x16x128x512.size (cc0_transform_1 i) (hinb0_1 i)).WholeWords (EltTy.packing .f32)

variable [Facts₀]

abbrev win0_0 : Pipeline.Window sig grid0 :=
  Pipeline.Window.ofSpec (Memref.whole main_arg0) S1x16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x128x512 : Shape := ⟨4, ![8, 128, 128, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8x128x128x512, .f32⟩
  | .hbm, ⟨1, _⟩ => ⟨S_, .f32⟩
  | .hbm, ⟨2, _⟩ => ⟨S_, .f32⟩
  | .hbm, ⟨3, _⟩ => ⟨S8x128x128x512, .f32⟩
  | _, _ => ⟨S8x128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x128x128x512_S8x128x128x512_w1s1p0_0_w1s1p0_0_w128s1p127_0_w1s1p0_0 : S8x128x128x512.ReduceWindows (![1, 1, 128, 1] : Fin 4 → Nat) ![1, 1, 1, 1] ![0, 0, 127, 0] ![0, 0, 0, 0] S8x128x128x512
  h_S_ : 0 < S_.numel

variable [Facts₀]

class Facts : Prop extends Facts₀ where

variable [Facts]
-- ==== Proof.LibPrefixMax.lean ====
/-
  Prefix maxima by doubling, over a finite line of positions.

  In a join-semilattice with a least element, write `winMax g w j` for the join of `g` over the (at most) `w` positions ending
  at `j` — the positions `i` with `j + 1 - w ≤ i ≤ j`, the window cut off at position 0. Then
    * a window of one position is the entry itself (`winMax_one`);
    * a window of `2 w` positions ending at `j` is the window of `w` positions ending at `j` joined with the window of `w`
      positions ending at `j - w`, when there is such a position, and with nothing (`⊥`) when `j < w` (`winMax_double`):
      this is one step of the Hillis–Steele scan, "join every entry with the entry `w` places before it";
    * a window that reaches back past position 0 is the whole prefix `0 … j` (`winMax_of_lt`).
  So `log₂ n` doubling steps from `g` itself compute every prefix join of a line of `n` positions (`step_winMax` is the
  induction step in the form a scan's k-th pass has). Only associativity, commutativity and idempotence of the join and the
  neutrality of `⊥` are used: no entry needs to be finite, and on the extended reals `⊔` is `max` and `⊥` is `-∞`.
-/
import Mathlib.Order.Interval.Finset.Fin
import Mathlib.Data.Finset.Lattice.Fold

namespace PrefixMax

variable {α : Type*} [SemilatticeSup α] [OrderBot α] {n : ℕ}

/-- The positions of the window of `w` places ending at `j`, cut off at position 0. -/
def window (w : ℕ) (j : Fin n) : Finset (Fin n) :=
  Finset.univ.filter fun i => j.val + 1 - w ≤ i.val ∧ i.val ≤ j.val

theorem mem_window {w : ℕ} {j i : Fin n} : i ∈ window w j ↔ j.val + 1 - w ≤ i.val ∧ i.val ≤ j.val := by
  simp [window]

/-- The join of `g` over the window of `w` places ending at `j`. -/
def winMax (g : Fin n → α) (w : ℕ) (j : Fin n) : α := (window w j).sup g

/-- A window of one place holds the entry itself. -/
theorem winMax_one (g : Fin n → α) (j : Fin n) : winMax g 1 j = g j := by
  have h : window 1 j = {j} := by
    ext i
    rw [mem_window, Finset.mem_singleton, Fin.ext_iff]
    omega
  rw [winMax, h, Finset.sup_singleton]

/-- DOUBLING: the window of `2 w` places ending at `j` is the window of `w` places ending at `j` together with the window of
    `w` places ending `w` places earlier — and just the former when `j < w`, since both windows then start at position 0. -/
theorem winMax_double (g : Fin n → α) {w : ℕ} (hw : 0 < w) (j : Fin n) :
    winMax g (2 * w) j
      = winMax g w j ⊔ (if h : w ≤ j.val then winMax g w ⟨j.val - w, lt_of_le_of_lt (Nat.sub_le _ _) j.isLt⟩ else ⊥) := by
  by_cases h : w ≤ j.val
  · rw [dif_pos h, winMax, winMax, winMax, ← Finset.sup_union]
    congr 1
    ext i
    simp only [Finset.mem_union, mem_window, Fin.val_mk]
    omega
  · rw [dif_neg h, sup_bot_eq, winMax, winMax]
    congr 1
    ext i
    simp only [mem_window]
    omega

/-- A window longer than the prefix is the whole prefix. -/
theorem winMax_of_lt (g : Fin n → α) {w : ℕ} (j : Fin n) (h : j.val < w) : winMax g w j = (Finset.Iic j).sup g := by
  rw [winMax]
  congr 1
  ext i
  rw [mem_window, Finset.mem_Iic, Fin.le_def]
  omega

/-- ONE PASS of the scan: if every entry of `y` is the join of `g` over the `w` places ending there, then joining every
    entry with the entry `w` places before it (with nothing in the first `w` places) gives the joins over `2 w` places. -/
theorem step_winMax (g y : Fin n → α) {w : ℕ} (hw : 0 < w) (hy : ∀ j, y j = winMax g w j) (j : Fin n) :
    y j ⊔ (if h : w ≤ j.val then y ⟨j.val - w, lt_of_le_of_lt (Nat.sub_le _ _) j.isLt⟩ else ⊥) = winMax g (2 * w) j := by
  rw [winMax_double g hw j, hy j]
  by_cases h : w ≤ j.val
  · rw [dif_pos h, dif_pos h, hy]
  · rw [dif_neg h, dif_neg h]

/-- Two prefix joins over equal positions of entrywise equal families are equal (the positions given as elements of
    `Fin n` that may be spelt differently). -/
theorem sup_Iic_congr {j j' : Fin n} (hj : j = j') {f g : Fin n → α} (hfg : ∀ k, f k = g k) :
    (Finset.Iic j).sup f = (Finset.Iic j').sup g := by
  subst hj
  exact Finset.sup_congr rfl fun k _ => hfg k

end PrefixMax
-- ==== Proof.Spec.lean ====
/-
  The specification: the running maximum along axis 2 of an array x[8, 128, 128, 512] of extended reals,
      cummax x (b, t, j, c) = ⨆ k ≤ j, x (b, t, k, c),
  the join over the prefix 0 … j of the line through (b, t, ·, c). Every other coordinate is carried along; position j of a
  line depends on positions 0 … j of the same line and on nothing else. On the extended reals the join is `max` and the
  empty join is `-∞`, so no entry has to be finite.
-/
import Idealize.ShloMosaic.Lib.ValueIdx
import proofs.«157228_j11836929868046_1_alg».proof.Proof.LibPrefixMax

noncomputable section

namespace Cert.Spec

open Idealize.ShloMosaic Idealize.ShloMosaic.ValueIdx

/-- The array's shape. -/
abbrev Arr : Shape := ⟨4, ![8, 128, 128, 512]⟩

/-- The maximum of the line through `(b, t, ·, c)` over positions `0 … j`. -/
def lineMax (x : Arr.Idx → EReal) (b : Fin 8) (t : Fin 128) (j : Fin 128) (c : Fin 512) : EReal :=
  (Finset.Iic j).sup fun k => x (ix4 b t k c)

/-- The running maximum along axis 2. -/
def cummax (x : Arr.Idx → EReal) : Arr.Idx → EReal := fun i => lineMax x (i 0) (i 1) (i 2) (i 3)

theorem cummax_ix4 (x : Arr.Idx → EReal) (b : Fin 8) (t : Fin 128) (j : Fin 128) (c : Fin 512) :
    cummax x (ix4 b t j c) = lineMax x b t j c := rfl

end Cert.Spec

end
-- ==== Proof.RefWindow.lean ====
/-
  The reference's one operation, read at an index.

  `lax.cummax` along axis 2 lowers to a `reduce_window` with the body `max`, a window of 128 places along axis 2 (one place on
  every other axis), stride 1, 127 places of low padding on axis 2 and the initial value −∞. Element (b, t, j, c) of the result is
  the left fold of `max`, from −∞, over the 128 window positions q: position q looks at place j + q − 127 of the line through
  (b, t, ·, c) — an entry of the operand when 127 ≤ j + q (then j + q − 127 ≤ j), the padding value −∞ otherwise. A fold of joins
  from the least element is the join of the terms in any order (`foldl_max`), every term is below the prefix maximum, and
  every entry x (b, t, k, c) with k ≤ j is the term of position q = 127 − j + k: the element is the maximum of the line over
  the places 0 … j (`reduceWindow_apply`).
-/
import proofs.«157228_j11836929868046_1_alg».proof.Proof.Gen.ReferenceIdeal
import proofs.«157228_j11836929868046_1_alg».proof.Proof.Spec
import Idealize.ShloMosaic.PureOps.Ideal
import Idealize.ShloMosaic.Lib.ValueIdx

noncomputable section

namespace Cert.ReferenceIdeal.Window

open Cert.ReferenceIdeal Idealize.ShloMosaic Idealize.ShloMosaic.ValueIdx Cert.Spec

/-- A left fold of `max` from `a` over a list of terms is `a` joined with the join of the terms. -/
theorem foldl_max {ι : Type} [DecidableEq ι] (g : ι → EReal) (l : List ι) (a : EReal) :
    l.foldl (fun r n => max r (g n)) a = a ⊔ l.toFinset.sup g := by
  induction l generalizing a with
  | nil => simp
  | cons n l ih => rw [List.foldl_cons, ih, List.toFinset_cons, Finset.sup_insert, sup_assoc]

/-- The window: 128 places along axis 2, one on every other axis. -/
abbrev Win : Shape := ⟨4, ![1, 1, 128, 1]⟩

/-- The `reduce_window` at an index: the maximum of the line over the places up to there. Unfolded, the element is the
    left fold of `max` from the padding value over the window positions `n`, position `q = Win.rowMajor.symm n` reading the
    operand at `(b, t, j + q₂ − 127, c)` when that is a place of the operand and the padding value otherwise. -/
theorem reduceWindow_apply (x : FVec Ideal S8x128x128x512 .f32) (init : FVec Ideal S_ .f32) (hinit : ∀ i, init i = (⊥ : EReal))
    (h : S8x128x128x512.ReduceWindows (![1, 1, 128, 1] : Fin 4 → Nat) ![1, 1, 1, 1] ![0, 0, 127, 0] ![0, 0, 0, 0] S8x128x128x512)
    (hu : 0 < S_.numel) (b : Fin 8) (t : Fin 128) (j : Fin 128) (c : Fin 512) :
    Host.reduceWindow (FloatOps.maximumf (F := Ideal) (φ := .f32)) ![1, 1, 128, 1] ![1, 1, 1, 1] ![0, 0, 127, 0] ![0, 0, 0, 0] x init h hu
        (ix4 b t j c)
      = lineMax x b t j c := by
  have hb : b.val < 8 := b.isLt
  have ht : t.val < 128 := t.isLt
  have hj : j.val < 128 := j.isLt
  have hc : c.val < 512 := c.isLt
  unfold Host.reduceWindow
  dsimp only
  simp only [Ideal.maximumf_def]
  rw [foldl_max, hinit, bot_sup_eq, List.toFinset_finRange]
  apply le_antisymm
  · -- every window position's term is an entry of the line at a place ≤ j, or the padding value
    refine Finset.sup_le fun n _ => ?_
    let q : Win.Idx := Win.rowMajor.symm n
    split_ifs with hin
    · have h2 : 127 ≤ j.val * 1 + (q 2).val ∧ j.val * 1 + (q 2).val - 127 < 128 := hin 2
      have q0 : (q 0).val < 1 := (q 0).isLt
      have q1 : (q 1).val < 1 := (q 1).isLt
      have q2 : (q 2).val < 128 := (q 2).isLt
      have q3 : (q 3).val < 1 := (q 3).isLt
      calc x _ = x (ix4 b t ⟨j.val * 1 + (q 2).val - 127, h2.2⟩ c) := congrArg x (funext fun a => Fin.ext (by
              match a with
              | ⟨0, _⟩ => show b.val * 1 + (q 0).val - 0 = b.val; omega
              | ⟨1, _⟩ => show t.val * 1 + (q 1).val - 0 = t.val; omega
              | ⟨2, _⟩ => rfl
              | ⟨3, _⟩ => show c.val * 1 + (q 3).val - 0 = c.val; omega))
        _ ≤ lineMax x b t j c := Finset.le_sup (f := fun k => x (ix4 b t k c))
              (Finset.mem_Iic.mpr (Fin.le_def.mpr (by show j.val * 1 + (q 2).val - 127 ≤ j.val; omega)))
    · exact bot_le
  · -- the entry at place k ≤ j is the term of window position 127 − j + k
    unfold lineMax
    refine Finset.sup_le fun k hk => ?_
    have hk' : k.val ≤ j.val := Fin.le_def.mp (Finset.mem_Iic.mp hk)
    refine le_trans (le_of_eq ?_) (Finset.le_sup (Finset.mem_univ
      (Win.rowMajor (ix4 (0 : Fin 1) (0 : Fin 1) (⟨127 - j.val + k.val, by omega⟩ : Fin 128) (0 : Fin 1)))))
    simp only [Equiv.symm_apply_apply]
    split_ifs with hin
    · exact congrArg x (funext fun a => Fin.ext (by
        match a with
        | ⟨0, _⟩ => show b.val = b.val * 1 + 0 - 0; omega
        | ⟨1, _⟩ => show t.val = t.val * 1 + 0 - 0; omega
        | ⟨2, _⟩ => show k.val = j.val * 1 + (127 - j.val + k.val) - 127; omega
        | ⟨3, _⟩ => show c.val = c.val * 1 + 0 - 0; omega))
    · exfalso
      apply hin
      intro a
      match a with
      | ⟨0, _⟩ => show 0 ≤ b.val * 1 + 0 ∧ b.val * 1 + 0 - 0 < 8; omega
      | ⟨1, _⟩ => show 0 ≤ t.val * 1 + 0 ∧ t.val * 1 + 0 - 0 < 128; omega
      | ⟨2, _⟩ => show 127 ≤ j.val * 1 + (127 - j.val + k.val) ∧ j.val * 1 + (127 - j.val + k.val) - 127 < 128; omega
      | ⟨3, _⟩ => show 0 ≤ c.val * 1 + 0 ∧ c.val * 1 + 0 - 0 < 512; omega

/-- The whole result: the running maximum of the operand along axis 2. -/
theorem reduceWindow_eq (x : FVec Ideal S8x128x128x512 .f32) (init : FVec Ideal S_ .f32) (hinit : ∀ i, init i = (⊥ : EReal))
    (h : S8x128x128x512.ReduceWindows (![1, 1, 128, 1] : Fin 4 → Nat) ![1, 1, 1, 1] ![0, 0, 127, 0] ![0, 0, 0, 0] S8x128x128x512)
    (hu : 0 < S_.numel) :
    Host.reduceWindow (FloatOps.maximumf (F := Ideal) (φ := .f32)) ![1, 1, 128, 1] ![1, 1, 1, 1] ![0, 0, 127, 0] ![0, 0, 0, 0] x init h hu
      = cummax x := by
  funext i
  obtain ⟨b, t, j, c, rfl⟩ : ∃ (b : Fin 8) (t : Fin 128) (j : Fin 128) (c : Fin 512), i = ix4 b t j c :=
    ⟨i 0, i 1, i 2, i 3, eq_ix4 i⟩
  exact reduceWindow_apply x init hinit h hu b t j c

/-- The padding value the reference passes: the splat of the word of minus infinity is the least extended real everywhere. -/
theorem init_bot (hb : S_.BroadcastsInDim S_ (![] : Fin 0 → Fin S_.rank)) (i : S_.Idx) :
    broadcastInDim S_ ![] hb (constant (F := Ideal) S_ .f32 0xFF800000#32) i = (⊥ : EReal) := by
  show Ideal.ofBits .f32 0xFF800000#32 = ⊥
  simp [Ideal.ofBits, Ideal.ieee]

end Cert.ReferenceIdeal.Window

end
-- ==== Proof.ScanPass.lean ====
/-
  One block of the kernel, read at an index.

  The body works on a block y[16, 128, 512] (the staged [1, 16, 128, 512] block with its unit axis dropped) and makes seven passes
  with d = 1, 2, 4, …, 64. A pass rotates the block by d places along axis 1 — entry j of the rotated block is entry
  (j − d) mod 128 —, keeps the rotated entry only where the position j (an iota along axis 1, compared as a signed 32-bit word)
  is at least d, puts −∞ elsewhere, and takes the entrywise maximum with the block itself:
      pass d y (r, j, c) = max (y (r, j, c)) (if d ≤ j then y (r, j − d, c) else −∞).
  That is one doubling step of a prefix-maximum scan along axis 1 (`PrefixMax.step_winMax`): if every entry of y is the
  maximum of the line over the d places ending there, every entry of `pass d y` is the maximum over the 2 d places ending there.
  After the seven passes the window is 128 places long, which from any position reaches back past position 0: the stored block
  holds at (0, r, j, c) the maximum of x (0, r, k, c) over k ≤ j.
-/
import proofs.«157228_j11836929868046_1_alg».proof.Proof.Gen.KernelIdeal.Skeleton
import proofs.«157228_j11836929868046_1_alg».proof.Proof.LibPrefixMax
import Idealize.ShloMosaic.Lib.ValueIdx
import Idealize.ShloMosaic.Lib.Pipeline.Value
import Idealize.ShloMosaic.Lib.KernelVsHost

noncomputable section

namespace Cert.KernelIdeal.Scan

open Cert.KernelIdeal Idealize.ShloMosaic Idealize.ShloMosaic.ValueIdx PrefixMax

/-! ## Words -/

/-- The word of minus infinity denotes the least extended real. -/
theorem ofBits_neg_inf : Ideal.ofBits .f32 0xFF800000#32 = (⊥ : EReal) := by
  simp [Ideal.ofBits, Ideal.ieee]

/-- The mask of a pass: for a position below 128 and each of the seven shifts, the signed comparison "position ≥ shift" of
    the two 32-bit words is the comparison of the numbers (decided over the 7 × 128 cases). -/
theorem mask_word : ∀ d ∈ [1, 2, 4, 8, 16, 32, 64], ∀ j : Fin 128,
    IntOp.cmpi .sge (BitVec.ofNat 32 j.val) (BitVec.ofNat 32 d) = if d ≤ j.val then 1#1 else 0#1 := by
  decide +kernel

/-! ## One pass -/

variable {F : FTy → Type} [FloatOps F]

/-- One pass of the scan, as the body spells it: the block, and its rotation by `d` along axis 1 masked to the positions
    `≥ d` (minus infinity elsewhere), joined entrywise. -/
def pass (d : BitVec 32) (y : FVec F S16x128x512 .f32) : FVec F S16x128x512 .f32 :=
  maximumf y (select (cmpi .sge (iota .tc S16x128x512 32 [1] Gen.iota_S16x128x512_d1_w32) (broadcast S16x128x512 d))
    (dynamicRotate 1 d none y Gen.rotates_S16x128x512_d1)
    (broadcast S16x128x512 (Scalar.ofBits .f32 0xFF800000#32)))

/-- The first payload is five passes over the block with its unit axis dropped … -/
theorem pay2_eq (v0 : Vec F S1x16x128x512 .f32) :
    Gen.k0_pay2 v0 = pass 16#32 (pass 8#32 (pass 4#32 (pass 2#32 (pass 1#32
      (shapeCast S16x128x512 v0 Gen.shapeCasts_S1x16x128x512_S16x128x512))))) := rfl

/-- … and the stored payload two more, with the unit axis put back. -/
theorem pay1_eq (v0 : Vec F S1x16x128x512 .f32) :
    Gen.k0_pay1 (iota .tc S16x128x512 32 [1] Gen.iota_S16x128x512_d1_w32) (Gen.k0_pay2 v0) (Gen.k0_pay3 v0) Gen.k0_pay4
        (Scalar.ofBits .f32 0xFF800000#32)
      = shapeCast S1x16x128x512 (pass 64#32 (pass 32#32 (Gen.k0_pay2 v0))) Gen.shapeCasts_S16x128x512_S1x16x128x512 := rfl

/-- A pass at an index: the entry joined with the entry `d` places before it on its line, or with nothing in the first `d`
    places. -/
theorem pass_apply (d : ℕ) (hd : d < 128)
    (hmask : ∀ j : Fin 128, IntOp.cmpi .sge (BitVec.ofNat 32 j.val) (BitVec.ofNat 32 d) = if d ≤ j.val then 1#1 else 0#1)
    (y : FVec Ideal S16x128x512 .f32) (r : Fin 16) (j : Fin 128) (c : Fin 512) :
    pass (BitVec.ofNat 32 d) y (ix3 r j c)
      = y (ix3 r j c) ⊔ (if h : d ≤ j.val then y (ix3 r ⟨j.val - d, lt_of_le_of_lt (Nat.sub_le _ _) j.isLt⟩ c) else ⊥) := by
  have hi : iota .tc S16x128x512 32 [1] Gen.iota_S16x128x512_d1_w32 (ix3 r j c) = BitVec.ofNat 32 j.val :=
    iota_single_apply .tc S16x128x512 32 1 _ (ix3 r j c)
  have hr : ∀ h : d ≤ j.val, dynamicRotate 1 (BitVec.ofNat 32 d) none y Gen.rotates_S16x128x512_d1 (ix3 r j c)
      = y (ix3 r ⟨j.val - d, lt_of_le_of_lt (Nat.sub_le _ _) j.isLt⟩ c) := fun h =>
    dynamicRotate_apply 1 _ y _ _ _ (fun b => by
      match b with
      | ⟨0, _⟩ => rfl
      | ⟨1, _⟩ =>
        show j.val - d = (j.val + 128 - (BitVec.ofNat 32 d).toNat % 128) % 128
        rw [BitVec.toNat_ofNat]
        omega
      | ⟨2, _⟩ => rfl)
  show max (y (ix3 r j c)) (Scalar.select
      (IntOp.cmpi .sge (iota .tc S16x128x512 32 [1] Gen.iota_S16x128x512_d1_w32 (ix3 r j c)) (BitVec.ofNat 32 d))
      (dynamicRotate 1 (BitVec.ofNat 32 d) none y Gen.rotates_S16x128x512_d1 (ix3 r j c))
      (Ideal.ofBits .f32 0xFF800000#32)) = _
  rw [hi, hmask j, ofBits_neg_inf]
  by_cases h : d ≤ j.val
  · rw [if_pos h, dif_pos h, select_one, hr h]
  · rw [if_neg h, dif_neg h, select_zero]

/-- A pass doubles the window: from maxima over the `d` places ending at each position to maxima over `2 d` places. -/
theorem pass_window (d w : ℕ) (hw : w = 2 * d) (hd0 : 0 < d) (hd : d < 128)
    (hmask : ∀ j : Fin 128, IntOp.cmpi .sge (BitVec.ofNat 32 j.val) (BitVec.ofNat 32 d) = if d ≤ j.val then 1#1 else 0#1)
    (X y : FVec Ideal S16x128x512 .f32)
    (hy : ∀ (r : Fin 16) (j : Fin 128) (c : Fin 512), y (ix3 r j c) = winMax (fun k => X (ix3 r k c)) d j)
    (r : Fin 16) (j : Fin 128) (c : Fin 512) :
    pass (BitVec.ofNat 32 d) y (ix3 r j c) = winMax (fun k => X (ix3 r k c)) w j := by
  rw [pass_apply d hd hmask y r j c, hw]
  exact step_winMax (fun k => X (ix3 r k c)) (fun k => y (ix3 r k c)) hd0 (fun k => hy r k c) j

/-! ## The stored block -/

/-- What the body stores, at an index: the maximum of the loaded block's line over the positions up to there. -/
theorem stored_apply (x0 : Vec Ideal S1x16x128x512 .f32) (u : Fin 1) (r : Fin 16) (j : Fin 128) (c : Fin 512) :
    Gen.k0_pay1 (iota .tc S16x128x512 32 [1] Gen.iota_S16x128x512_d1_w32) (Gen.k0_pay2 x0) (Gen.k0_pay3 x0) Gen.k0_pay4
        (Scalar.ofBits .f32 0xFF800000#32) (ix4 u r j c)
      = (Finset.Iic j).sup fun k => x0 (ix4 0 r k c) := by
  rw [pay1_eq, pay2_eq]
  refine (shapeCast_addUnit_apply ![16, 128, 512] _ _ (ix4 u r j c)).trans ?_
  have e : (fun a : Fin 3 => (ix4 u r j c) a.succ) = ix3 r j c := funext fun a => by
    match a with
    | ⟨0, _⟩ => rfl
    | ⟨1, _⟩ => rfl
    | ⟨2, _⟩ => rfl
  rw [e]
  generalize hX : shapeCast S16x128x512 x0 Gen.shapeCasts_S1x16x128x512_S16x128x512 = X
  have hx : ∀ (r : Fin 16) (k : Fin 128) (c : Fin 512), X (ix3 r k c) = x0 (ix4 0 r k c) := fun r k c => by
    rw [← hX]
    exact (shapeCast_dropUnit_apply ![16, 128, 512] x0 _ (ix3 r k c)).trans (congrArg x0 (funext fun a => by
      match a with
      | ⟨0, _⟩ => rfl
      | ⟨1, _⟩ => rfl
      | ⟨2, _⟩ => rfl
      | ⟨3, _⟩ => rfl))
  have h1 : ∀ (r : Fin 16) (j : Fin 128) (c : Fin 512), X (ix3 r j c) = winMax (fun k => X (ix3 r k c)) 1 j :=
    fun r j c => (winMax_one (fun k => X (ix3 r k c)) j).symm
  have h2 := pass_window 1 2 rfl (by decide) (by decide) (mask_word 1 (by decide)) X _ h1
  have h4 := pass_window 2 4 rfl (by decide) (by decide) (mask_word 2 (by decide)) X _ h2
  have h8 := pass_window 4 8 rfl (by decide) (by decide) (mask_word 4 (by decide)) X _ h4
  have h16 := pass_window 8 16 rfl (by decide) (by decide) (mask_word 8 (by decide)) X _ h8
  have h32 := pass_window 16 32 rfl (by decide) (by decide) (mask_word 16 (by decide)) X _ h16
  have h64 := pass_window 32 64 rfl (by decide) (by decide) (mask_word 32 (by decide)) X _ h32
  have h128 := pass_window 64 128 rfl (by decide) (by decide) (mask_word 64 (by decide)) X _ h64
  refine (h128 r j c).trans ?_
  rw [winMax_of_lt _ j j.isLt]
  exact Finset.sup_congr rfl fun k _ => hx r k c

end Cert.KernelIdeal.Scan

end
-- ==== Proof.ArrayValue.lean ====
/-
  From the blocks to the array.

  The grid has 8 × 8 points; point (g0, g1) stages block (g0, g1, 0, 0) of x[8, 128, 128, 512] — one batch entry, sixteen
  consecutive rows of axis 1, ALL of axis 2 and all of axis 3 — and writes block (g0, g1, 0, 0) of the result back. Array index
  (b, t, j, c) lies in the block of the point (b, t / 16), at block coordinates (0, t mod 16, j, c). Since a block holds whole
  lines along axis 2, the maximum of the block's line over the places 0 … j (what the body stores, `Scan.stored_apply`) IS the
  maximum of the array's line over the places 0 … j: every point writes back its block of `cummax x`, the 64 blocks cover the
  array, and so the result array ends holding `cummax x`.
-/
import proofs.«157228_j11836929868046_1_alg».proof.Proof.Gen.KernelIdeal.Value
import proofs.«157228_j11836929868046_1_alg».proof.Proof.ScanPass
import proofs.«157228_j11836929868046_1_alg».proof.Proof.Spec
import Idealize.ShloMosaic.Lib.Pipeline.Value

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Spec PrefixMax
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- A block whose lines along axis 2 are lines of the array `A` — block entry (u, r, k, c) is `A` at (i0, i1·16 + r, k, c) —
    stores, at the block index `y`, the running maximum of `A` at the array index `i` under it. -/
theorem stored_eq_cummax (x0 : Vec Ideal S1x16x128x512 .f32) (A : Arr.Idx → EReal) (i0 i1 : ℕ)
    (hx : ∀ (u : Fin 1) (r : Fin 16) (k : Fin 128) (c : Fin 512) (bb : Fin 8) (tt : Fin 128),
      bb.val = i0 → tt.val = i1 * 16 + r.val → x0 (ix4 u r k c) = A (ix4 bb tt k c))
    (y : S1x16x128x512.Idx) (i : Arr.Idx)
    (hi0 : (i 0).val = i0 + (y 0).val) (hi1 : (i 1).val = i1 * 16 + (y 1).val) (hi2 : (i 2).val = (y 2).val)
    (hi3 : (i 3).val = (y 3).val) :
    k0_pay1 (iota .tc S16x128x512 32 [1] iota_S16x128x512_d1_w32) (k0_pay2 x0) (k0_pay3 x0) k0_pay4
        (Scalar.ofBits .f32 0xFF800000#32) y
      = cummax A i := by
  obtain ⟨u, r, j, c, rfl⟩ : ∃ (u : Fin 1) (r : Fin 16) (j : Fin 128) (c : Fin 512), y = ix4 u r j c :=
    ⟨y 0, y 1, y 2, y 3, eq_ix4 y⟩
  obtain ⟨b', t', j', c', rfl⟩ : ∃ (b' : Fin 8) (t' : Fin 128) (j' : Fin 128) (c' : Fin 512), i = ix4 b' t' j' c' :=
    ⟨i 0, i 1, i 2, i 3, eq_ix4 i⟩
  have e0 : b'.val = i0 + u.val := hi0
  have e1 : t'.val = i1 * 16 + r.val := hi1
  have e2 : j'.val = j.val := hi2
  have e3 : c'.val = c.val := hi3
  have hu : u.val = 0 := by have := u.isLt; omega
  obtain rfl : c = c' := Fin.ext e3.symm
  rw [Scan.stored_apply, cummax_ix4]
  unfold lineMax
  exact sup_Iic_congr (Fin.ext e2.symm) fun k => hx 0 r k c b' t' (by omega) e1

/-- The printed index maps, decided over the 64 grid points: the input's block index is the output's, both read the grid
    position on axes 0 and 1 and are 0 on axes 2 and 3. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 7 :=
  (by decide +kernel : ∀ t : Fin grid0.N, _)

/-- Every block (q0, q1, 0, 0) is some point's. -/
theorem idx_onto : ∀ (q0 : Fin 8) (q1 : Fin 8), ∃ t : Fin cfg0.N, win0_1.index t = ![q0.val, q1.val, 0, 0] :=
  (by decide +kernel : ∀ (q0 : Fin 8) (q1 : Fin 8), ∃ t : Fin grid0.N, win0_1.index t = ![q0.val, q1.val, 0, 0])

/-- WHAT POINT `t` WRITES BACK is its block of the running maximum of the argument array. -/
theorem flushed_eq (c : Dev nD) (t : Fin cfg0.N) :
    (dats m 0 c).flushed 1 t = ((cfg0.win 1).blk t).view.read (Elt Ideal) (cummax (V m c main_arg0)) := by
  show (cfg0.win 1).cut (grid0.coords t) ((dats m 0 c).after 1 t) = _
  rw [after0_1]
  unfold out0_1
  rw [View.canon_unit_zero hz]
  simp only [View.ld_unit_zero (S := S1x16x128x512) hz]
  obtain ⟨e0, e1, e2, e3, e4, e5, e6, e7⟩ := idx_facts t
  funext y
  show k0_pay1 (iota .tc S16x128x512 32 [1] iota_S16x128x512_d1_w32) (k0_pay2 (iblk m c 0 t)) (k0_pay3 (iblk m c 0 t)) k0_pay4
      (Scalar.ofBits .f32 0xFF800000#32) y = cummax (V m c main_arg0) (((cfg0.win 1).blk t).view.emb y)
  refine stored_eq_cummax (iblk m c 0 t) (V m c main_arg0) (win0_1.index t (0 : Fin 4)) (win0_1.index t (1 : Fin 4)) ?_ y _
    ?_ ?_ ?_ ?_
  · intro u r k c' bb tt hbb htt
    show V m c main_arg0 (((cfg0.win 0).blk t).view.emb (ix4 u r k c')) = V m c main_arg0 (ix4 bb tt k c')
    refine congrArg _ (funext fun a => Fin.ext ?_)
    have hu : u.val < 1 := u.isLt
    match a with
    | ⟨0, _⟩ => show win0_0.index t (0 : Fin 4) * 1 + 1 * u.val = bb.val; omega
    | ⟨1, _⟩ => show win0_0.index t (1 : Fin 4) * 16 + 1 * r.val = tt.val; omega
    | ⟨2, _⟩ => show win0_0.index t (2 : Fin 4) * 128 + 1 * k.val = k.val; omega
    | ⟨3, _⟩ => show win0_0.index t (3 : Fin 4) * 512 + 1 * c'.val = c'.val; omega
  · have hy : (y 0).val < 1 := (y 0).isLt
    show win0_1.index t (0 : Fin 4) * 1 + 1 * (y 0).val = win0_1.index t (0 : Fin 4) + (y 0).val; omega
  · show win0_1.index t (1 : Fin 4) * 16 + 1 * (y 1).val = win0_1.index t (1 : Fin 4) * 16 + (y 1).val; omega
  · show win0_1.index t (2 : Fin 4) * 128 + 1 * (y 2).val = (y 2).val; omega
  · show win0_1.index t (3 : Fin 4) * 512 + 1 * (y 3).val = (y 3).val; omega

/-- An index of the array is in point `t`'s block iff each coordinate is in the block's range on its axis. -/
theorem mem_blk (t : Fin cfg0.N) (i : S8x128x128x512.Idx) :
    i ∈ ((cfg0.win 1).blk t).view.set ↔ ∀ a : Fin 4, win0_1.index t a * S1x16x128x512.size a ≤ (i a).val
      ∧ (i a).val < win0_1.index t a * S1x16x128x512.size a + S1x16x128x512.size a := by
  show i ∈ ((View.whole main_v0).slice (win0_1.rect t)).set ↔ _
  rw [View.set_slice_whole, Rect.mem_set_unit]
  exact Iff.rfl

/-- The 64 blocks cover the array: index (b, t, j, c) is in the block of the point with block index (b, t / 16, 0, 0). -/
theorem cover (i : S8x128x128x512.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 512 := (i 3).isLt
  obtain ⟨t, ht⟩ := idx_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 128 ≤ (i 2).val ∧ (i 2).val < win0_1.index t (2 : Fin 4) * 128 + 128; omega
  | ⟨3, _⟩ => show win0_1.index t (3 : Fin 4) * 512 ≤ (i 3).val ∧ (i 3).val < win0_1.index t (3 : Fin 4) * 512 + 512; omega

/-- THE ARRAY after the run: the running maximum of the argument along axis 2. -/
theorem final (c : Dev nD) : (dats m 0 c).arrAt 1 cfg0.N = cummax (m ((c : Thread nD τ).loc main_arg0)) :=
  (dats m 0 c).arrAt_eq_of_cover 1 (cummax (V m c main_arg0)) (fun t _ => flushed_eq m c t) cover

/-- The run, read: the result array at the running maximum of the argument, the argument unchanged. -/
theorem run : θ_run defs (onTc (τ := τ) (main (F := Ideal))) ⟨m, fun _ => 0, ρ⟩ fun r => ∀ c : Dev nD,
      r.2.mem ((c : Thread nD τ).loc main_v0) = cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  The running maximum along axis 2 of x[8, 128, 128, 512], computed two ways, is one function on the extended reals.

  THE KERNEL. A grid of 8 × 8 points; each stages a block [1, 16, 128, 512] holding whole lines along axis 2, and runs a
  Hillis–Steele scan on it: seven passes d = 1, 2, 4, …, 64, each replacing every entry by its maximum with the entry d places
  earlier on its line (a rotation by d along axis 1 of the [16, 128, 512] view, masked with −∞ where the position is below d).
  If every entry is the maximum over the d places ending there, after the pass it is the maximum over 2 d places
  (Proof/LibPrefixMax.lean, `winMax_double`); a window of 128 places reaches back past place 0 from everywhere, so the stored
  block holds the prefix maxima of its lines (Proof/ScanPass.lean). The 64 blocks tile the array and every block's lines are the
  array's lines, so the result array ends holding `cummax x` (Proof/ArrayValue.lean, over the frame run's blockwise post).

  THE REFERENCE. `lax.cummax` is one `reduce_window`: body `max`, 128 places along axis 2 with 127 places of low padding,
  initial value −∞. Its element (b, t, j, c) is a left fold of `max` from −∞ over the places j − 127 … j of the line, the places
  below 0 reading −∞: the maximum over the places 0 … j (Proof/RefWindow.lean), that is `cummax x` (Proof/Spec.lean).

  Only the lattice laws of `max` on the extended reals and the neutrality of −∞ are used: the precondition that the inputs are
  finite is never opened. The idealization rewrote nothing, so `preserves` is `True`. The frames of the two kernel programs are
  the generated ones; the reference's frame is its run (Proof/ReferenceRun.lean) with the result dropped.
-/
import proofs.«157228_j11836929868046_1_alg».proof.Defs
import proofs.«157228_j11836929868046_1_alg».proof.Proof.Gen.Kernel
import proofs.«157228_j11836929868046_1_alg».proof.Proof.Gen.Kernel.Skeleton
import proofs.«157228_j11836929868046_1_alg».proof.Proof.Gen.Kernel.Launch
import proofs.«157228_j11836929868046_1_alg».proof.Proof.Gen.Kernel.Points
import proofs.«157228_j11836929868046_1_alg».proof.Proof.Gen.Kernel.Frame
import proofs.«157228_j11836929868046_1_alg».proof.Proof.Gen.KernelIdeal
import proofs.«157228_j11836929868046_1_alg».proof.Proof.Gen.KernelIdeal.Skeleton
import proofs.«157228_j11836929868046_1_alg».proof.Proof.Gen.KernelIdeal.Launch
import proofs.«157228_j11836929868046_1_alg».proof.Proof.Gen.KernelIdeal.Points
import proofs.«157228_j11836929868046_1_alg».proof.Proof.Gen.KernelIdeal.Frame
import proofs.«157228_j11836929868046_1_alg».proof.Proof.Gen.ReferenceIdeal
import proofs.«157228_j11836929868046_1_alg».proof.Proof.Gen.Pre_finite_inputs
import proofs.«157228_j11836929868046_1_alg».proof.Proof.Gen.KernelIdeal.Value
import proofs.«157228_j11836929868046_1_alg».proof.Proof.ReferenceRun
import proofs.«157228_j11836929868046_1_alg».proof.Proof.RefWindow
import proofs.«157228_j11836929868046_1_alg».proof.Proof.ArrayValue
import Idealize.ShloMosaic.Adequacy
import Idealize.ShloMosaic.Init

noncomputable section

namespace Cert.Proof

open Idealize.ShloMosaic Idealize.SL.Sem

/-- The word-level kernel runs and leaves its argument as it was: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the argument, both programs end with the result array at the running maximum of the argument
    along axis 2: the kernel's by its blocks' scans, the reference's by its window fold. -/
theorem algebraic : Cert.algebraic_KernelIdeal_ReferenceIdeal := by
  intro m ρ m' ρ' _ hagree
  refine ⟨fun c => Cert.Spec.cummax (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  dsimp only
  rw [← hagree c]
  exact Cert.ReferenceIdeal.Window.reduceWindow_eq _ _ (Cert.ReferenceIdeal.Window.init_bot _) _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
